-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S14336x4096 : Shape := ⟨2, ![14336, 4096]⟩
abbrev S4096x14336 : Shape := ⟨2, ![4096, 14336]⟩
abbrev S14336 : Shape := ⟨1, ![14336]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S14336x4096 : S_.BroadcastsInDim S14336x4096 (![] : Fin 0 → Fin S14336x4096.rank)
  reducesTo_S14336x4096_S_d0_1 : S14336x4096.ReducesTo [0, 1] S_
  bcast_S_S4096x14336 : S_.BroadcastsInDim S4096x14336 (![] : Fin 0 → Fin S4096x14336.rank)
  reducesTo_S4096x14336_S_d0_1 : S4096x14336.ReducesTo [0, 1] S_
  bcast_S_S14336 : S_.BroadcastsInDim S14336 (![] : Fin 0 → Fin S14336.rank)
  reducesTo_S14336_S_d0 : S14336.ReducesTo [0] S_

variable [Facts]

def fn_part1 {F : FTy → Type} [FloatOps F] (main_arg4 : FVec F S14336 .f32) (main_v13 : IVec S_ 1) (main_v16 : IVec S4096x14336 1) : IVec S_ 1 :=
  let main_c_5 : IVec S_ 1 := constantI S_ 1 1#1
  let main_v17 : IVec S_ 1 := (fun x v => Host.reduce IntOp.andi x v reducesTo_S4096x14336_S_d0_1 h_S_) main_v16 main_c_5
  let main_v18 : IVec S_ 1 := andi main_v13 main_v17
  let main_v19 : FVec F S14336 .f32 := Host.absf main_arg4
  let main_cst_6 : FVec F S_ .f32 := constant S_ .f32 0x7F800000#32
  let main_v20 : FVec F S14336 .f32 := broadcastInDim S14336 ![] bcast_S_S14336 main_cst_6
  let main_v21 : IVec S14336 1 := cmpf .olt main_v19 main_v20
  let main_c_7 : IVec S_ 1 := constantI S_ 1 1#1
  let main_v22 : IVec S_ 1 := (fun x v => Host.reduce IntOp.andi x v reducesTo_S14336_S_d0 h_S_) main_v21 main_c_7
  let main_v23 : IVec S_ 1 := andi main_v18 main_v22
  main_v23

def fn {F : FTy → Type} [FloatOps F] (main_arg0 : FVec F S4x2048x4096 .f32) (main_arg1 : FVec F S14336x4096 .f32) (main_arg2 : FVec F S14336x4096 .f32) (main_arg3 : FVec F S4096x14336 .f32) (main_arg4 : FVec F S14336 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S14336x4096 .f32 := Host.absf main_arg1
  let main_cst_0 : FVec F S_ .f32 := constant S_ .f32 0x7F800000#32
  let main_v5 : FVec F S14336x4096 .f32 := broadcastInDim S14336x4096 ![] bcast_S_S14336x4096 main_cst_0
  let main_v6 : IVec S14336x4096 1 := cmpf .olt main_v4 main_v5
  let main_c_1 : IVec S_ 1 := constantI S_ 1 1#1
  let main_v7 : IVec S_ 1 := (fun x v => Host.reduce IntOp.andi x v reducesTo_S14336x4096_S_d0_1 h_S_) main_v6 main_c_1
  let main_v8 : IVec S_ 1 := andi main_v3 main_v7
  let main_v9 : FVec F S14336x4096 .f32 := Host.absf main_arg2
  let main_cst_2 : FVec F S_ .f32 := constant S_ .f32 0x7F800000#32
  let main_v10 : FVec F S14336x4096 .f32 := broadcastInDim S14336x4096 ![] bcast_S_S14336x4096 main_cst_2
  let main_v11 : IVec S14336x4096 1 := cmpf .olt main_v9 main_v10
  let main_c_3 : IVec S_ 1 := constantI S_ 1 1#1
  let main_v12 : IVec S_ 1 := (fun x v => Host.reduce IntOp.andi x v reducesTo_S14336x4096_S_d0_1 h_S_) main_v11 main_c_3
  let main_v13 : IVec S_ 1 := andi main_v8 main_v12
  let main_v14 : FVec F S4096x14336 .f32 := Host.absf main_arg3
  let main_cst_4 : FVec F S_ .f32 := constant S_ .f32 0x7F800000#32
  let main_v15 : FVec F S4096x14336 .f32 := broadcastInDim S4096x14336 ![] bcast_S_S4096x14336 main_cst_4
  let main_v16 : IVec S4096x14336 1 := cmpf .olt main_v14 main_v15
  fn_part1 (F := F) main_arg4 main_v13 main_v16
-- ==== Kernel.lean ====
abbrev S4x2048x4096 : Shape := ⟨3, ![4, 2048, 4096]⟩
abbrev S14336x4096 : Shape := ⟨2, ![14336, 4096]⟩
abbrev S4096x14336 : Shape := ⟨2, ![4096, 14336]⟩
abbrev S14336 : Shape := ⟨1, ![14336]⟩
abbrev S8192x4096 : Shape := ⟨2, ![8192, 4096]⟩
abbrev S1x14336 : Shape := ⟨2, ![1, 14336]⟩
abbrev S256x4096 : Shape := ⟨2, ![256, 4096]⟩
abbrev S4096x256 : Shape := ⟨2, ![4096, 256]⟩
abbrev S1x256 : Shape := ⟨2, ![1, 256]⟩
abbrev S256x256 : Shape := ⟨2, ![256, 256]⟩

abbrev nBuf : Space → Nat
  | .hbm => 11
  | .vmem => 12
  | .smem => 0
  | _ => 0

abbrev bufTy : (tb : Table) → Fin (tcTables nBuf tb) → BufTy
  | .hbm, ⟨0, _⟩ => ⟨S4x2048x4096, .f32⟩
  | .hbm, ⟨1, _⟩ => ⟨S14336x4096, .f32⟩
  | .hbm, ⟨2, _⟩ => ⟨S14336x4096, .f32⟩
  | .hbm, ⟨3, _⟩ => ⟨S4096x14336, .f32⟩
  | .hbm, ⟨4, _⟩ => ⟨S14336, .f32⟩
  | .hbm, ⟨5, _⟩ => ⟨S8192x4096, .f32⟩
  | .hbm, ⟨6, _⟩ => ⟨S14336x4096, .bf16⟩
  | .hbm, ⟨7, _⟩ => ⟨S4096x14336, .bf16⟩
  | .hbm, ⟨8, _⟩ => ⟨S1x14336, .f32⟩
  | .hbm, ⟨9, _⟩ => ⟨S8192x4096, .f32⟩
  | .hbm, ⟨10, _⟩ => ⟨S4x2048x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .bf16⟩
  | .local _ .vmem, ⟨5, _⟩ => ⟨S256x4096, .bf16⟩
  | .local _ .vmem, ⟨6, _⟩ => ⟨S4096x256, .bf16⟩
  | .local _ .vmem, ⟨7, _⟩ => ⟨S4096x256, .bf16⟩
  | .local _ .vmem, ⟨8, _⟩ => ⟨S1x256, .f32⟩
  | .local _ .vmem, ⟨9, _⟩ => ⟨S1x256, .f32⟩
  | .local _ .vmem, ⟨10, _⟩ => ⟨S256x4096, .f32⟩
  | .local _ .vmem, ⟨11, _⟩ => ⟨S256x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 56], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S4x2048x4096_S8192x4096 : S4x2048x4096.ShapeCasts S8192x4096
  bitsLt_bf16_f32 : FTy.bits .bf16 < FTy.bits .f32
  shapeCasts_S14336_S1x14336 : S14336.ShapeCasts S1x14336
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  natLt_1_32 : 1 < 32
  shapeCasts_S8192x4096_S4x2048x4096 : S8192x4096.ShapeCasts S4x2048x4096
  dot_S256x4096_S256x4096_S256x256_1_1_0_0_n_n_wf : DotDims.WF S256x4096 S256x4096 S256x256 [1] [1] [0] [0] [] []
  dot_S256x256_S4096x256_S256x4096_1_1_0_0_n_n_wf : DotDims.WF S256x256 S4096x256 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S14336x4096.size a
  hwx0_1 : ∀ i : grid0.Coords, EltTy.bits .f32 = 32 ∨ (Rect.block (s := S14336x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S14336x4096.size a
  hwx0_2 : ∀ i : grid0.Coords, EltTy.bits .bf16 = 32 ∨ (Rect.block (s := S14336x4096) S256x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S4096x14336.size a
  hwx0_3 : ∀ i : grid0.Coords, EltTy.bits .bf16 = 32 ∨ (Rect.block (s := S4096x14336) S4096x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x14336.size a
  hwx0_4 : ∀ i : grid0.Coords, EltTy.bits .f32 = 32 ∨ (Rect.block (s := S1x14336) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x4096.size a ≤ S8192x4096.size a
  hwx0_5 : ∀ i : grid0.Coords, EltTy.bits .f32 = 32 ∨ (Rect.block (s := S8192x4096) S256x4096.size (cc0_transform_5 i) (hinb0_5 i)).WholeWords (EltTy.packing .f32)

variable [Facts₀]

def dot_S256x4096_S256x4096_S256x256_1_1_0_0_n_n : DotDims S256x4096 S256x4096 S256x256 where
  lhsContracting := [1]
  rhsContracting := [1]
  lhsNonContracting := [0]
  rhsNonContracting := [0]
  lhsBatch := []
  rhsBatch := []
  wf := dot_S256x4096_S256x4096_S256x256_1_1_0_0_n_n_wf
def dot_S256x256_S4096x256_S256x4096_1_1_0_0_n_n : DotDims S256x256 S4096x256 S256x4096 where
  lhsContracting := [1]
  rhsContracting := [1]
  lhsNonContracting := [0]
  rhsNonContracting := [0]
  lhsBatch := []
  rhsBatch := []
  wf := dot_S256x256_S4096x256_S256x4096_1_1_0_0_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S4096x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S256x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S14336x4096 : Shape := ⟨2, ![14336, 4096]⟩
abbrev S4096x14336 : Shape := ⟨2, ![4096, 14336]⟩
abbrev S14336 : Shape := ⟨1, ![14336]⟩
abbrev S4x2048x14336 : Shape := ⟨3, ![4, 2048, 14336]⟩
abbrev S1x1x14336 : Shape := ⟨3, ![1, 1, 14336]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S14336x4096, .f32⟩
  | .hbm, ⟨2, _⟩ => ⟨S14336x4096, .f32⟩
  | .hbm, ⟨3, _⟩ => ⟨S4096x14336, .f32⟩
  | .hbm, ⟨4, _⟩ => ⟨S14336, .f32⟩
  | .hbm, ⟨5, _⟩ => ⟨S4x2048x14336, .f32⟩
  | .hbm, ⟨6, _⟩ => ⟨S1x1x14336, .f32⟩
  | .hbm, ⟨7, _⟩ => ⟨S4x2048x14336, .f32⟩
  | .hbm, ⟨8, _⟩ => ⟨S4x2048x14336, .f32⟩
  | .hbm, ⟨9, _⟩ => ⟨S4x2048x14336, .f32⟩
  | .hbm, ⟨10, _⟩ => ⟨S_, .f32⟩
  | .hbm, ⟨11, _⟩ => ⟨S4x2048x14336, .f32⟩
  | .hbm, ⟨12, _⟩ => ⟨S4x2048x14336, .i1⟩
  | .hbm, ⟨13, _⟩ => ⟨S4x2048x14336, .f32⟩
  | .hbm, ⟨14, _⟩ => ⟨S4x2048x14336, .f32⟩
  | .hbm, ⟨15, _⟩ => ⟨S4x2048x14336, .f32⟩
  | .hbm, ⟨16, _⟩ => ⟨S4x2048x14336, .f32⟩
  | .hbm, ⟨17, _⟩ => ⟨S4x2048x14336, .f32⟩
  | .hbm, ⟨18, _⟩ => ⟨S_, .f32⟩
  | .hbm, ⟨19, _⟩ => ⟨S4x2048x14336, .f32⟩
  | .hbm, ⟨20, _⟩ => ⟨S4x2048x14336, .f32⟩
  | .hbm, ⟨21, _⟩ => ⟨S_, .f32⟩
  | .hbm, ⟨22, _⟩ => ⟨S4x2048x14336, .f32⟩
  | .hbm, ⟨23, _⟩ => ⟨S4x2048x14336, .f32⟩
  | .hbm, ⟨24, _⟩ => ⟨S4x2048x14336, .f32⟩
  | .hbm, ⟨25, _⟩ => ⟨S4x2048x14336, .f32⟩
  | .hbm, ⟨26, _⟩ => ⟨S4x2048x14336, .f32⟩
  | .hbm, ⟨27, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩

abbrev nD : Nat := 1
abbrev τ : Topo := Topo.v7x

variable {F : FTy → Type} [FloatOps F]

class Facts₀ : Prop where
  bcast_S14336_S1x1x14336_2 : S14336.BroadcastsInDim S1x1x14336 (![2] : Fin 1 → Fin S1x1x14336.rank)
  bcast_S1x1x14336_S4x2048x14336_0_1_2 : S1x1x14336.BroadcastsInDim S4x2048x14336 (![0, 1, 2] : Fin 3 → Fin S4x2048x14336.rank)
  bcast_S_S4x2048x14336 : S_.BroadcastsInDim S4x2048x14336 (![] : Fin 0 → Fin S4x2048x14336.rank)
  dot_S4x2048x4096_S14336x4096_S4x2048x14336_2_1_01_0_n_n_wf : DotDims.WF S4x2048x4096 S14336x4096 S4x2048x14336 [2] [1] [0, 1] [0] [] []
  dot_S4x2048x14336_S4096x14336_S4x2048x4096_2_1_01_0_n_n_wf : DotDims.WF S4x2048x14336 S4096x14336 S4x2048x4096 [2] [1] [0, 1] [0] [] []

variable [Facts₀]

def dot_S4x2048x4096_S14336x4096_S4x2048x14336_2_1_01_0_n_n : DotDims S4x2048x4096 S14336x4096 S4x2048x14336 where
  lhsContracting := [2]
  rhsContracting := [1]
  lhsNonContracting := [0, 1]
  rhsNonContracting := [0]
  lhsBatch := []
  rhsBatch := []
  wf := dot_S4x2048x4096_S14336x4096_S4x2048x14336_2_1_01_0_n_n_wf
def dot_S4x2048x14336_S4096x14336_S4x2048x4096_2_1_01_0_n_n : DotDims S4x2048x14336 S4096x14336 S4x2048x4096 where
  lhsContracting := [2]
  rhsContracting := [1]
  lhsNonContracting := [0, 1]
  rhsNonContracting := [0]
  lhsBatch := []
  rhsBatch := []
  wf := dot_S4x2048x14336_S4096x14336_S4x2048x4096_2_1_01_0_n_n_wf

class Facts : Prop extends Facts₀ where

variable [Facts]
-- ==== Proof.Pieces.lean ====
/-
  What the body leaves in the output tile's buffer, in each of its two cases.

  At the first point of a run (neuron run 0) the body stores the zero tile, reads it back, and stores the stored value
  computed over that zero; at every other point it reads the buffer as the point before left it and stores the stored
  value computed over that. Either way one store covers the whole buffer, so the buffer ends at that store's value.
-/
import proofs.«111965_j6442450944690_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- Every point but a run's first: the stored value over the buffer's contents `xo`. -/
theorem out_B (c : Dev nD) (i : grid0.Coords) (a2 : Memref sig .tc .vmem S256x4096 .f32) (h2 : a2.IsWhole)
    (a3 : Memref sig .tc .vmem S256x4096 .f32) (h3 : a3.IsWhole) (a4 : Memref sig .tc .vmem S256x4096 .bf16) (h4 : a4.IsWhole)
    (a5 : Memref sig .tc .vmem S4096x256 .bf16) (h5 : a5.IsWhole) (a6 : Memref sig .tc .vmem S1x256 .f32) (h6 : a6.IsWhole)
    (a7 : Memref sig .tc .vmem S256x4096 .f32) (h7 : a7.IsWhole) (hc : ¬cond0_0 i)
    (x0 x1 : Vec F S256x4096 .f32) (x2 : Vec F S256x4096 .bf16) (x3 : Vec F S4096x256 .bf16) (x4 : Vec F S1x256 .f32)
    (xo : Vec F S256x4096 .f32) :
    out0_B_5 c i a2 h2 a3 h3 a4 h4 a5 h5 a6 h6 a7 h7 hc x0 x1 x2 x3 x4 xo = k0_pay2 x0 x1 x2 x3 x4 xo := by
  unfold out0_B_5
  rw [View.read_writes_eq_canon _ _ _ (cover0_B_5 c i a2 h2 a3 h3 a4 h4 a5 h5 a6 h6 a7 h7 hc x0 x1 x2 x3 x4 xo)]
  unfold kernelRun0_B
  dsimp only
  sl_unfold_words
  rw [View.canon_unit_zero hz]
  simp only [View.readAt_eq_ld, h2.read_unread, h3.read_unread, h4.read_unread, h5.read_unread, h6.read_unread, h7.read_unread,
    View.ld_unit_zero (S := S256x4096) hz, View.ld_unit_zero (S := S4096x256) hz, View.ld_unit_zero (S := S1x256) hz]

/-- A run's first point: the stored value over the zero tile just stored. -/
theorem out_A (c : Dev nD) (i : grid0.Coords) (a2 : Memref sig .tc .vmem S256x4096 .f32) (h2 : a2.IsWhole)
    (a3 : Memref sig .tc .vmem S256x4096 .f32) (h3 : a3.IsWhole) (a4 : Memref sig .tc .vmem S256x4096 .bf16) (h4 : a4.IsWhole)
    (a5 : Memref sig .tc .vmem S4096x256 .bf16) (h5 : a5.IsWhole) (a6 : Memref sig .tc .vmem S1x256 .f32) (h6 : a6.IsWhole)
    (a7 : Memref sig .tc .vmem S256x4096 .f32) (h7 : a7.IsWhole) (hc : cond0_0 i)
    (x0 x1 : Vec F S256x4096 .f32) (x2 : Vec F S256x4096 .bf16) (x3 : Vec F S4096x256 .bf16) (x4 : Vec F S1x256 .f32) :
    out0_A_5 c i a2 h2 a3 h3 a4 h4 a5 h5 a6 h6 a7 h7 hc x0 x1 x2 x3 x4 = k0_pay2 x0 x1 x2 x3 x4 (k0_pay1 (F := F)) := by
  unfold out0_A_5
  rw [View.read_writes_eq_canon _ _ _ (cover0_A_5 c i a2 h2 a3 h3 a4 h4 a5 h5 a6 h6 a7 h7 hc x0 x1 x2 x3 x4)]
  unfold kernelRun0_A
  dsimp only
  sl_unfold_words
  rw [View.canon_cons_unit_zero (S := S256x4096) hz, View.readCov_unit_zero (S := S256x4096) _ hz]
  simp only [View.readAt_eq_ld, h2.read_unread, h3.read_unread, h4.read_unread, h5.read_unread, h6.read_unread,
    View.ld_unit_zero (S := S256x4096) hz, View.ld_unit_zero (S := S4096x256) hz, View.ld_unit_zero (S := S1x256) hz]

end Cert.KernelIdeal.Pieces

end
-- ==== Proof.LibBlockedSum.lean ====
/-
  A finite sum taken block by block. A sum over the first `a * b` naturals, cut into `a` consecutive blocks of
  length `b`, is the sum over the blocks of each block's sum: block `s` holds the naturals `b * s + j`, `j < b`.
  This is only associativity and commutativity of the addition, so it holds in every commutative additive monoid —
  in particular on the extended reals, where nothing about finiteness is asked. Stated three ways: over ranges, with
  the inner sum over `Fin b`, and with the outer sum over `Fin n` for `n = a * b`.
-/
import Mathlib.Algebra.BigOperators.Fin
import Mathlib.Algebra.BigOperators.Intervals

namespace BlockedSum

open Finset

variable {β : Type*} [AddCommMonoid β]

/-- The sum over `range (a * b)` is the sum over the `a` blocks of the sums over each block's `b` members. -/
theorem sum_range_blocks (a b : ℕ) (g : ℕ → β) :
    ∑ s ∈ range a, ∑ j ∈ range b, g (b * s + j) = ∑ h ∈ range (a * b), g h := by
  induction a with
  | zero => simp
  | succ a ih =>
    rw [sum_range_succ, ih, Nat.succ_mul, sum_range_add, Nat.mul_comm a b]

/-- The same with each block's members indexed by `Fin b`. -/
theorem sum_range_blocks_fin (a b : ℕ) (g : ℕ → β) :
    ∑ s ∈ range a, ∑ j : Fin b, g (b * s + j.val) = ∑ h ∈ range (a * b), g h := by
  rw [← sum_range_blocks a b g]
  exact sum_congr rfl fun s _ => (Finset.sum_range fun j => g (b * s + j)).symm

/-- … and the whole sum indexed by `Fin n`, `n = a * b`: the form in which a contraction over an axis of extent `n`
    meets the same contraction accumulated tile by tile. -/
theorem sum_fin_blocks (a b n : ℕ) (hn : n = a * b) (g : ℕ → β) :
    ∑ s ∈ range a, ∑ j : Fin b, g (b * s + j.val) = ∑ h : Fin n, g h.val := by
  subst hn
  rw [sum_range_blocks_fin, Finset.sum_range]

end BlockedSum
-- ==== Proof.GatedSpec.lean ====
/-
  The function both programs compute, one row of tokens at a time, on the extended reals.

  For a row `xr` of 4096 features and neuron `i` of 14336: the two projections `u = ∑ c, xr c · w_up (i, c)` and
  `g = ∑ c, xr c · w_gate (i, c)`; the threshold mask `μ = 1` if `|u · a i| ≥ 1/2`, else `0`; the gated value
  `silu (g · μ) · (u · μ)` with `silu z = z · 1 / (1 + e^(-z))`; and output feature `h` is the sum over all neurons of
  the gated value times `w_down (h, i)`.

  The kernel takes that last sum in 56 consecutive runs of 256 neurons, adding each run's sum to a running total that
  starts at zero; the reference takes it at once. The two agree by associativity and commutativity of the addition
  alone (`partOut_full`), so no finiteness is asked anywhere.
-/
import Idealize.ShloMosaic.PureOps.Ideal
import Idealize.ShloMosaic.PureOps.Ideal.Laws
import Idealize.ShloMosaic.Lib.ValueIdx
import proofs.«111965_j6442450944690_2_alg».proof.Proof.LibBlockedSum

noncomputable section

namespace Cert.GatedSpec

open Idealize.ShloMosaic Idealize.ShloMosaic.ValueIdx

/-- The threshold `1/2`, as the word both programs carry. -/
abbrev half : EReal := Ideal.ofBits .f32 0x3F000000#32

/-- The threshold test `|u · a| ≥ 1/2` as a bit. -/
def gateBit (u a : EReal) : BitVec 1 := Ideal.cmp .oge (max (u * a) (-(u * a))) half

/-- The mask: that bit as `0` or `1`. -/
def mask (u a : EReal) : EReal := (((gateBit u a).toNat : ℝ) : EReal)

/-- `silu z = z · logistic z`. -/
def silu (z : EReal) : EReal := z * Ideal.logistic z

/-- One neuron's gated value from its two projections `u`, `g` and its scale `a`. -/
def neuron (u g a : EReal) : EReal := silu (g * mask u a) * (u * mask u a)

/-- A bit widened to 32 bits and read as a signed integer is the bit read as a natural number. -/
theorem signed_widen_bit (b : BitVec 1) : (((b.setWidth 32).toInt : ℝ) : EReal) = (((b.toNat : ℝ)) : EReal) := by
  by_cases h : b = 1#1
  · subst h; norm_num
  · have h0 := ValueIdx.eq_zero_of_ne_one h
    subst h0; norm_num

/-- The word `0x3F800000` is the number one. -/
theorem one_word : Ideal.ofBits .f32 0x3F800000#32 = 1 := IdealRules.sign_bit.ideal_onePat .f32

/-- The logistic function spelt with the host's division and exponential of the word one. -/
theorem logistic_spelt (z : EReal) :
    Ideal.div (Ideal.ofBits .f32 0x3F800000#32) (Ideal.ofBits .f32 0x3F800000#32 + Ideal.exp (-z)) = Ideal.logistic z := by
  rw [one_word]; rfl

/-! ## One row -/

/-- Row `xr` projected on row `i` of a weight matrix. -/
def proj (xr : Fin 4096 → EReal) (w : (⟨2, ![14336, 4096]⟩ : Shape).Idx → EReal) (i : Fin 14336) : EReal :=
  ∑ c : Fin 4096, xr c * w (ix2 i c)

/-- Neuron `i`'s gated value on row `xr`. -/
def gated (xr : Fin 4096 → EReal) (wg wu : (⟨2, ![14336, 4096]⟩ : Shape).Idx → EReal) (ag : Fin 14336 → EReal)
    (i : Fin 14336) : EReal :=
  neuron (proj xr wu i) (proj xr wg i) (ag i)

/-- Output feature `h` of row `xr`: the sum over every neuron. -/
def rowOut (xr : Fin 4096 → EReal) (wg wu : (⟨2, ![14336, 4096]⟩ : Shape).Idx → EReal)
    (wd : (⟨2, ![4096, 14336]⟩ : Shape).Idx → EReal) (ag : Fin 14336 → EReal) (h : Fin 4096) : EReal :=
  ∑ i : Fin 14336, gated xr wg wu ag i * wd (ix2 h i)

/-- The summand of `rowOut` at a natural number (zero past the last neuron). -/
def term (xr : Fin 4096 → EReal) (wg wu : (⟨2, ![14336, 4096]⟩ : Shape).Idx → EReal)
    (wd : (⟨2, ![4096, 14336]⟩ : Shape).Idx → EReal) (ag : Fin 14336 → EReal) (h : Fin 4096) (n : ℕ) : EReal :=
  if hn : n < 14336 then gated xr wg wu ag ⟨n, hn⟩ * wd (ix2 h ⟨n, hn⟩) else 0

theorem term_of_lt (xr : Fin 4096 → EReal) (wg wu : (⟨2, ![14336, 4096]⟩ : Shape).Idx → EReal)
    (wd : (⟨2, ![4096, 14336]⟩ : Shape).Idx → EReal) (ag : Fin 14336 → EReal) (h : Fin 4096) (i : Fin 14336) (n : ℕ)
    (hn : n = i.val) : term xr wg wu wd ag h n = gated xr wg wu ag i * wd (ix2 h i) := by
  subst hn; unfold term; rw [dif_pos i.isLt]

/-- The sum of the first `j` runs of 256 neurons. -/
def partOut (xr : Fin 4096 → EReal) (wg wu : (⟨2, ![14336, 4096]⟩ : Shape).Idx → EReal)
    (wd : (⟨2, ![4096, 14336]⟩ : Shape).Idx → EReal) (ag : Fin 14336 → EReal) (h : Fin 4096) (j : ℕ) : EReal :=
  ∑ s ∈ Finset.range j, ∑ k : Fin 256, term xr wg wu wd ag h (256 * s + k.val)

theorem partOut_zero (xr : Fin 4096 → EReal) (wg wu : (⟨2, ![14336, 4096]⟩ : Shape).Idx → EReal)
    (wd : (⟨2, ![4096, 14336]⟩ : Shape).Idx → EReal) (ag : Fin 14336 → EReal) (h : Fin 4096) :
    partOut xr wg wu wd ag h 0 = 0 := by
  unfold partOut; rw [Finset.range_zero, Finset.sum_empty]

/-- One more run: the running total plus that run's sum. -/
theorem partOut_succ (xr : Fin 4096 → EReal) (wg wu : (⟨2, ![14336, 4096]⟩ : Shape).Idx → EReal)
    (wd : (⟨2, ![4096, 14336]⟩ : Shape).Idx → EReal) (ag : Fin 14336 → EReal) (h : Fin 4096) (j : ℕ) :
    partOut xr wg wu wd ag h (j + 1)
      = partOut xr wg wu wd ag h j + ∑ k : Fin 256, term xr wg wu wd ag h (256 * j + k.val) := by
  unfold partOut; rw [Finset.sum_range_succ]

/-- All 56 runs make up the whole sum over the 14336 neurons. -/
theorem partOut_full (xr : Fin 4096 → EReal) (wg wu : (⟨2, ![14336, 4096]⟩ : Shape).Idx → EReal)
    (wd : (⟨2, ![4096, 14336]⟩ : Shape).Idx → EReal) (ag : Fin 14336 → EReal) (h : Fin 4096) :
    partOut xr wg wu wd ag h 56 = rowOut xr wg wu wd ag h := by
  unfold partOut rowOut
  rw [BlockedSum.sum_fin_blocks 56 256 14336 (by norm_num) (term xr wg wu wd ag h)]
  exact Finset.sum_congr rfl fun i _ => term_of_lt xr wg wu wd ag h i i.val rfl

end Cert.GatedSpec

end
-- ==== Proof.Payload.lean ====
/-
  What one grid point adds, read at an element.

  The body's stored value at row `p` of the token tile and output feature `q` is the running total there plus the
  sum, over the 256 neurons `k` of the point's run, of the neuron's gated value on row `p` times `w_down (q, k)` of
  the run's tile: the three matrix products into zero accumulators are plain sums over their contraction index, the
  roundings to bf16 are the identity on the extended reals, the comparison's bit widened and read as a signed integer
  is the mask, and the scale row `[1, 256]` broadcast over the tile reads its column.
-/
import proofs.«111965_j6442450944690_2_alg».proof.Proof.Gen.KernelIdeal.Skeleton
import proofs.«111965_j6442450944690_2_alg».proof.Proof.GatedSpec
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx Cert.GatedSpec

/-- The dimension record of the two projections: `[256, 4096] × [256, 4096]ᵀ → [256, 256]`. -/
abbrev dProj : DotDims S256x4096 S256x4096 S256x256 := dot_S256x4096_S256x4096_S256x256_1_1_0_0_n_n
/-- The dimension record of the down projection: `[256, 256] × [4096, 256]ᵀ → [256, 4096]`. -/
abbrev dDown : DotDims S256x256 S4096x256 S256x4096 := dot_S256x256_S4096x256_S256x4096_1_1_0_0_n_n

theorem proj_lhs_0 (i : S256x256.Idx) (q : dProj.contr.Idx) : (dProj.lhsIdx i q 0).val = (i 0).val := by
  unfold DotDims.lhsIdx
  rw [dif_neg (show ¬(0 : Fin S256x4096.rank) ∈ dProj.lhsBatch by decide), dif_pos (show (0 : Fin S256x4096.rank) ∈ dProj.lhsNonContracting by decide)]
  rfl
theorem proj_lhs_1 (i : S256x256.Idx) (q : dProj.contr.Idx) : (dProj.lhsIdx i q 1).val = (q ⟨0, by decide⟩).val :=
  dProj.lhsIdx_val_of_single rfl i q
theorem proj_rhs_0 (i : S256x256.Idx) (q : dProj.contr.Idx) : (dProj.rhsIdx i q 0).val = (i 1).val := by
  unfold DotDims.rhsIdx
  rw [dif_neg (show ¬(0 : Fin S256x4096.rank) ∈ dProj.rhsBatch by decide), dif_pos (show (0 : Fin S256x4096.rank) ∈ dProj.rhsNonContracting by decide)]
  rfl
theorem proj_rhs_1 (i : S256x256.Idx) (q : dProj.contr.Idx) : (dProj.rhsIdx i q 1).val = (q ⟨0, by decide⟩).val :=
  dProj.rhsIdx_val_of_single rfl i q

/-- A projection product into the zero accumulator at (p, k): row `p` of the left operand against row `k` of the right. -/
theorem proj_matmul_apply {φ₁ φ₂ : FTy} (prec : Option ContractPrecision) (a : FVec Ideal S256x4096 φ₁) (b : FVec Ideal S256x4096 φ₂)
    (p : Fin 256) (k : Fin 256) :
    matmul dProj prec a b (constant S256x256 .f32 0x00000000#32) (ix2 p k) = ∑ c : Fin 4096, a (ix2 p c) * b (ix2 k c) := by
  simp only [matmul]
  rw [Ideal.matmul_constant_zero_apply, ← Equiv.sum_comp (ValueIdx.contrEquiv1 dProj 4096 rfl rfl).symm]
  refine Finset.sum_congr rfl fun c _ => ?_
  have hk := ValueIdx.contrEquiv1_symm_val dProj 4096 rfl rfl c
  have el : dProj.lhsIdx (ix2 p k) ((ValueIdx.contrEquiv1 dProj 4096 rfl rfl).symm c) = ix2 p c := funext fun d => Fin.ext (by
    match d with
    | ⟨0, _⟩ => exact proj_lhs_0 _ _
    | ⟨1, _⟩ => exact (proj_lhs_1 _ _).trans hk)
  have er : dProj.rhsIdx (ix2 p k) ((ValueIdx.contrEquiv1 dProj 4096 rfl rfl).symm c) = ix2 k c := funext fun d => Fin.ext (by
    match d with
    | ⟨0, _⟩ => exact proj_rhs_0 _ _
    | ⟨1, _⟩ => exact (proj_rhs_1 _ _).trans hk)
  rw [el, er]

theorem down_lhs_0 (i : S256x4096.Idx) (q : dDown.contr.Idx) : (dDown.lhsIdx i q 0).val = (i 0).val := by
  unfold DotDims.lhsIdx
  rw [dif_neg (show ¬(0 : Fin S256x256.rank) ∈ dDown.lhsBatch by decide), dif_pos (show (0 : Fin S256x256.rank) ∈ dDown.lhsNonContracting by decide)]
  rfl
theorem down_lhs_1 (i : S256x4096.Idx) (q : dDown.contr.Idx) : (dDown.lhsIdx i q 1).val = (q ⟨0, by decide⟩).val :=
  dDown.lhsIdx_val_of_single rfl i q
theorem down_rhs_0 (i : S256x4096.Idx) (q : dDown.contr.Idx) : (dDown.rhsIdx i q 0).val = (i 1).val := by
  unfold DotDims.rhsIdx
  rw [dif_neg (show ¬(0 : Fin S4096x256.rank) ∈ dDown.rhsBatch by decide), dif_pos (show (0 : Fin S4096x256.rank) ∈ dDown.rhsNonContracting by decide)]
  rfl
theorem down_rhs_1 (i : S256x4096.Idx) (q : dDown.contr.Idx) : (dDown.rhsIdx i q 1).val = (q ⟨0, by decide⟩).val :=
  dDown.rhsIdx_val_of_single rfl i q

/-- The down product into the zero accumulator at (p, q): row `p` of the gated values against row `q` of the weights. -/
theorem down_matmul_apply {φ₁ φ₂ : FTy} (prec : Option ContractPrecision) (a : FVec Ideal S256x256 φ₁) (b : FVec Ideal S4096x256 φ₂)
    (p : Fin 256) (q : Fin 4096) :
    matmul dDown prec a b (constant S256x4096 .f32 0x00000000#32) (ix2 p q) = ∑ k : Fin 256, a (ix2 p k) * b (ix2 q k) := by
  simp only [matmul]
  rw [Ideal.matmul_constant_zero_apply, ← Equiv.sum_comp (ValueIdx.contrEquiv1 dDown 256 rfl rfl).symm]
  refine Finset.sum_congr rfl fun c _ => ?_
  have hk := ValueIdx.contrEquiv1_symm_val dDown 256 rfl rfl c
  have el : dDown.lhsIdx (ix2 p q) ((ValueIdx.contrEquiv1 dDown 256 rfl rfl).symm c) = ix2 p c := funext fun d => Fin.ext (by
    match d with
    | ⟨0, _⟩ => exact down_lhs_0 _ _
    | ⟨1, _⟩ => exact (down_lhs_1 _ _).trans hk)
  have er : dDown.rhsIdx (ix2 p q) ((ValueIdx.contrEquiv1 dDown 256 rfl rfl).symm c) = ix2 q c := funext fun d => Fin.ext (by
    match d with
    | ⟨0, _⟩ => exact down_rhs_0 _ _
    | ⟨1, _⟩ => exact (down_rhs_1 _ _).trans hk)
  rw [el, er]

/-- The scale row `[1, 256]` broadcast over the `[256, 256]` tile reads its column. -/
theorem scale_apply (v : FVec Ideal S1x256 .f32) (p k : Fin 256) :
    broadcastTo S256x256 v broadcasts_S1x256_S256x256 (ix2 p k) = v (ix2 (0 : Fin 1) k) :=
  broadcastTo_apply v broadcasts_S1x256_S256x256 (ix2 p k) (ix2 (0 : Fin 1) k) (fun a => by
    match a with
    | ⟨0, _⟩ => show (0 : ℕ) = if (1 : ℕ) = 1 then 0 else _; rw [if_pos rfl]
    | ⟨1, _⟩ => show k.val = if (256 : ℕ) = 1 then 0 else k.val; rw [if_neg (by decide)])

theorem absf_at {s : Shape} {φ : FTy} (v : FVec Ideal s φ) (i : s.Idx) : absf v i = max (v i) (-(v i)) := rfl
theorem logistic_at {s : Shape} {φ : FTy} (v : FVec Ideal s φ) (i : s.Idx) : logistic v i = Ideal.logistic (v i) := rfl

/-- The body's gated values at (p, k) of the tile: the neuron function of the two projections and the scale. -/
def tile (x0 x1 : FVec Ideal S256x4096 .f32) (x2 : FVec Ideal S256x4096 .bf16) (x4 : FVec Ideal S1x256 .f32) (p k : Fin 256) : EReal :=
  neuron (∑ c : Fin 4096, x0 (ix2 p c) * x1 (ix2 k c)) (∑ c : Fin 4096, x0 (ix2 p c) * x2 (ix2 k c)) (x4 (ix2 (0 : Fin 1) k))

/-- The tile's gated value is the row function's, once the tile's entries are named as entries of whole arrays:
    row `p` of the `x` tile as a row `xr`, rows `k` of the weight tiles as rows `i` of `wu` and `wg`, the scale as `ag i`. -/
theorem tile_eq_gated (x0 x1 : FVec Ideal S256x4096 .f32) (x2 : FVec Ideal S256x4096 .bf16) (x4 : FVec Ideal S1x256 .f32)
    (p k : Fin 256) (xr : Fin 4096 → EReal) (wg wu : (⟨2, ![14336, 4096]⟩ : Shape).Idx → EReal) (ag : Fin 14336 → EReal)
    (i : Fin 14336) (h0 : ∀ cc, x0 (ix2 p cc) = xr cc) (h1 : ∀ cc, x1 (ix2 k cc) = wu (ix2 i cc))
    (h2 : ∀ cc, x2 (ix2 k cc) = wg (ix2 i cc)) (h4 : x4 (ix2 (0 : Fin 1) k) = ag i) :
    tile x0 x1 x2 x4 p k = gated xr wg wu ag i := by
  unfold tile gated proj
  simp only [h0, h1, h2, h4]

/-- The stored value at (p, q): the running total plus the run's sum. -/
theorem pay2_apply (x0 x1 : FVec Ideal S256x4096 .f32) (x2 : FVec Ideal S256x4096 .bf16) (x3 : FVec Ideal S4096x256 .bf16)
    (x4 : FVec Ideal S1x256 .f32) (xo : FVec Ideal S256x4096 .f32) (p : Fin 256) (q : Fin 4096) :
    k0_pay2 (F := Ideal) x0 x1 x2 x3 x4 xo (ix2 p q) = xo (ix2 p q) + ∑ k : Fin 256, tile x0 x1 x2 x4 p k * x3 (ix2 q k) := by
  unfold k0_pay2
  simp only [shapeCast_self]
  rw [addf_apply]
  refine congrArg (xo (ix2 p q) + ·) ?_
  refine (down_matmul_apply none _ x3 p q).trans ?_
  refine Finset.sum_congr rfl fun k _ => ?_
  refine congrArg (· * x3 (ix2 q k)) ?_
  simp only [truncf_apply, mulf_apply, logistic_at, absf_at, sitofp_apply, extui_apply, cmpf_apply, broadcast_apply,
    proj_matmul_apply, scale_apply]
  unfold tile neuron silu mask gateBit
  rw [← signed_widen_bit]
  rfl

end Cert.KernelIdeal.Payload

end
-- ==== Proof.Blocks.lean ====
/-
  The tiles each grid point reads, as elements of the arrays the region finds.

  The grid is 32 token tiles by 56 neuron runs, run index fastest: point `t` is token tile `t / 56`, run `t % 56`.
  Element (p, c) of its `x` tile is row `256 · (t / 56) + p` of the token matrix; element (k, c) of its `w_up` and
  `w_gate` tiles is row `256 · (t % 56) + k`; element (q, k) of its `w_down` tile is column `256 · (t % 56) + k`; and
  element (0, k) of its scale tile is entry `256 · (t % 56) + k`.
-/
import proofs.«111965_j6442450944690_2_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- Where each window's block sits at point `t`: token tile `t / 56`, neuron run `t % 56`. -/
theorem tile_index : ∀ t : Fin cfg0.N,
    win0_0.index t 0 = t.val / 56 ∧ win0_0.index t 1 = 0
    ∧ win0_1.index t 0 = t.val % 56 ∧ win0_1.index t 1 = 0
    ∧ win0_2.index t 0 = t.val % 56 ∧ win0_2.index t 1 = 0
    ∧ win0_3.index t 0 = 0 ∧ win0_3.index t 1 = t.val % 56
    ∧ win0_4.index t 0 = 0 ∧ win0_4.index t 1 = t.val % 56
    ∧ win0_5.index t 0 = t.val / 56 ∧ win0_5.index t 1 = 0 :=
  (by decide +kernel : ∀ t : Fin grid0.N,
    win0_0.index t 0 = t.val / 56 ∧ win0_0.index t 1 = 0
    ∧ win0_1.index t 0 = t.val % 56 ∧ win0_1.index t 1 = 0
    ∧ win0_2.index t 0 = t.val % 56 ∧ win0_2.index t 1 = 0
    ∧ win0_3.index t 0 = 0 ∧ win0_3.index t 1 = t.val % 56
    ∧ win0_4.index t 0 = 0 ∧ win0_4.index t 1 = t.val % 56
    ∧ win0_5.index t 0 = t.val / 56 ∧ win0_5.index t 1 = 0)

/-- The `x` tile at (p, cc) is row `256 · (t / 56) + p` of the token matrix. -/
theorem x_tile (c : Dev nD) (t : Fin cfg0.N) (p : Fin 256) (cc : Fin 4096) (r : Fin 8192) (hr : r.val = 256 * (t.val / 56) + p.val) :
    (iblk m c 0 t : Vec F S256x4096 .f32) (ix2 p cc) = V m c main_v0 (ix2 r cc) := by
  unfold iblk
  rw [View.read_apply]
  show V m c main_v0 _ = V m c main_v0 _
  refine congrArg (V m c main_v0) (funext fun a => Fin.ext ?_)
  match a with
  | ⟨0, _⟩ => show win0_0.index t 0 * 256 + 1 * p.val = r.val; rw [(tile_index t).1, hr]; omega
  | ⟨1, _⟩ => show win0_0.index t 1 * 4096 + 1 * cc.val = cc.val; rw [(tile_index t).2.1]; omega

/-- The `w_up` tile at (k, cc) is row `256 · (t % 56) + k` of `w_up`. -/
theorem up_tile (c : Dev nD) (t : Fin cfg0.N) (k : Fin 256) (cc : Fin 4096) (i : Fin 14336) (hi : i.val = 256 * (t.val % 56) + k.val) :
    (iblk m c 1 t : Vec F S256x4096 .f32) (ix2 k cc) = V m c main_arg2 (ix2 i cc) := by
  unfold iblk
  rw [View.read_apply]
  show V m c main_arg2 _ = V m c main_arg2 _
  refine congrArg (V m c main_arg2) (funext fun a => Fin.ext ?_)
  match a with
  | ⟨0, _⟩ => show win0_1.index t 0 * 256 + 1 * k.val = i.val; rw [(tile_index t).2.2.1, hi]; omega
  | ⟨1, _⟩ => show win0_1.index t 1 * 4096 + 1 * cc.val = cc.val; rw [(tile_index t).2.2.2.1]; omega

/-- The `w_gate` tile at (k, cc) is row `256 · (t % 56) + k` of the rounded `w_gate`. -/
theorem gate_tile (c : Dev nD) (t : Fin cfg0.N) (k : Fin 256) (cc : Fin 4096) (i : Fin 14336) (hi : i.val = 256 * (t.val % 56) + k.val) :
    (iblk m c 2 t : Vec F S256x4096 .bf16) (ix2 k cc) = V m c main_v1 (ix2 i cc) := by
  unfold iblk
  rw [View.read_apply]
  show V m c main_v1 _ = V m c main_v1 _
  refine congrArg (V m c main_v1) (funext fun a => Fin.ext ?_)
  match a with
  | ⟨0, _⟩ => show win0_2.index t 0 * 256 + 1 * k.val = i.val; rw [(tile_index t).2.2.2.2.1, hi]; omega
  | ⟨1, _⟩ => show win0_2.index t 1 * 4096 + 1 * cc.val = cc.val; rw [(tile_index t).2.2.2.2.2.1]; omega

/-- The `w_down` tile at (q, k) is column `256 · (t % 56) + k` of the rounded `w_down`. -/
theorem down_tile (c : Dev nD) (t : Fin cfg0.N) (q : Fin 4096) (k : Fin 256) (i : Fin 14336) (hi : i.val = 256 * (t.val % 56) + k.val) :
    (iblk m c 3 t : Vec F S4096x256 .bf16) (ix2 q k) = V m c main_v2 (ix2 q i) := by
  unfold iblk
  rw [View.read_apply]
  show V m c main_v2 _ = V m c main_v2 _
  refine congrArg (V m c main_v2) (funext fun a => Fin.ext ?_)
  match a with
  | ⟨0, _⟩ => show win0_3.index t 0 * 4096 + 1 * q.val = q.val; rw [(tile_index t).2.2.2.2.2.2.1]; omega
  | ⟨1, _⟩ => show win0_3.index t 1 * 256 + 1 * k.val = i.val; rw [(tile_index t).2.2.2.2.2.2.2.1, hi]; omega

/-- The scale tile at (0, k) is entry `256 · (t % 56) + k` of the scale row. -/
theorem scale_tile (c : Dev nD) (t : Fin cfg0.N) (k : Fin 256) (i : Fin 14336) (hi : i.val = 256 * (t.val % 56) + k.val) :
    (iblk m c 4 t : Vec F S1x256 .f32) (ix2 (0 : Fin 1) k) = V m c main_v3 (ix2 (0 : Fin 1) i) := by
  unfold iblk
  rw [View.read_apply]
  show V m c main_v3 _ = V m c main_v3 _
  refine congrArg (V m c main_v3) (funext fun a => Fin.ext ?_)
  match a with
  | ⟨0, _⟩ => show win0_4.index t 0 * 1 + 1 * 0 = 0; rw [(tile_index t).2.2.2.2.2.2.2.2.1]
  | ⟨1, _⟩ => show win0_4.index t 1 * 256 + 1 * k.val = i.val; rw [(tile_index t).2.2.2.2.2.2.2.2.2.1, hi]; omega

/-! ## The arrays the region finds, from the launch memory -/

/-- The token matrix: `x` reshaped to `[8192, 4096]`. -/
theorem V_tokens (c : Dev nD) :
    (V m c main_v0 : S8192x4096.Idx → F .f32)
      = shapeCast S8192x4096 (m ((c.tc : Thread nD τ).loc main_arg0)) shapeCasts_S4x2048x4096_S8192x4096 := by
  show StableHlo.after hostOps0 (fun b => m (c, b)) (Proc.devRef .tc main_v0) = _
  after_results; rfl

/-- `w_gate` rounded to bf16. -/
theorem V_gate (c : Dev nD) :
    (V m c main_v1 : S14336x4096.Idx → F .bf16) = truncf .bf16 (m ((c.tc : Thread nD τ).loc main_arg1)) bitsLt_bf16_f32 := by
  show StableHlo.after hostOps0 (fun b => m (c, b)) (Proc.devRef .tc main_v1) = _
  after_results

/-- `w_down` rounded to bf16. -/
theorem V_down (c : Dev nD) :
    (V m c main_v2 : S4096x14336.Idx → F .bf16) = truncf .bf16 (m ((c.tc : Thread nD τ).loc main_arg3)) bitsLt_bf16_f32 := by
  show StableHlo.after hostOps0 (fun b => m (c, b)) (Proc.devRef .tc main_v2) = _
  after_results

/-- The scale vector as a row `[1, 14336]`. -/
theorem V_scale (c : Dev nD) :
    (V m c main_v3 : S1x14336.Idx → F .f32)
      = shapeCast S1x14336 (m ((c.tc : Thread nD τ).loc main_arg4)) shapeCasts_S14336_S1x14336 := by
  show StableHlo.after hostOps0 (fun b => m (c, b)) (Proc.devRef .tc main_v3) = _
  after_results; rfl

end Cert.KernelIdeal.Blocks

end
-- ==== Proof.Accum.lean ====
/-
  The running total, point by point.

  After the point at run `j` of token tile `T` the output tile's buffer holds, at row `p` and feature `q`, the sum of
  the first `j + 1` runs of the row function's sum for token row `256 · T + p`: the first point of a tile stores
  zero plus its run's sum, every later point adds its run's sum to what the point before left. By induction on the
  point; the grid is never enumerated.
-/
import proofs.«111965_j6442450944690_2_alg».proof.Proof.Gen.KernelIdeal.Frame
import proofs.«111965_j6442450944690_2_alg».proof.Proof.Pieces
import proofs.«111965_j6442450944690_2_alg».proof.Proof.Payload
import proofs.«111965_j6442450944690_2_alg».proof.Proof.Blocks
import proofs.«111965_j6442450944690_2_alg».proof.Proof.GatedSpec

noncomputable section

namespace Cert.KernelIdeal.Accum

open Cert.KernelIdeal Cert.KernelIdeal.Gen Idealize.ShloMosaic Idealize.ShloMosaic.TcCoe Idealize.SL.Sem
open Idealize.ShloMosaic.ValueIdx Cert.GatedSpec Cert.KernelIdeal.Payload Cert.KernelIdeal.Blocks

variable (m : (ℓ : Loc nD τ sig) → Buf (Elt Ideal) ℓ)

/-- Row `r` of the token matrix the region finds. -/
abbrev tokRow (c : Dev nD) (r : Fin 8192) : Fin 4096 → EReal := fun cc => V m c main_v0 (ix2 r cc)
/-- The gate weights the region finds. -/
abbrev wGate (c : Dev nD) : (⟨2, ![14336, 4096]⟩ : Shape).Idx → EReal := V m c main_v1
/-- The up weights the region finds. -/
abbrev wUp (c : Dev nD) : (⟨2, ![14336, 4096]⟩ : Shape).Idx → EReal := V m c main_arg2
/-- The down weights the region finds. -/
abbrev wDown (c : Dev nD) : (⟨2, ![4096, 14336]⟩ : Shape).Idx → EReal := V m c main_v2
/-- The scale row the region finds, entry by entry. -/
abbrev scale (c : Dev nD) : Fin 14336 → EReal := fun i => V m c main_v3 (ix2 (0 : Fin 1) i)

/-- One summand of a point's run: neuron `256 · (t % 56) + k` of token row `r`, times its down weight. -/
theorem run_term (c : Dev nD) (t : Fin cfg0.N) (p : Fin 256) (q : Fin 4096) (r : Fin 8192)
    (hr : r.val = 256 * (t.val / 56) + p.val) (k : Fin 256) :
    tile (iblk m c 0 t) (iblk m c 1 t) (iblk m c 2 t) (iblk m c 4 t) p k * (iblk m c 3 t : FVec Ideal S4096x256 .bf16) (ix2 q k)
      = term (tokRow m c r) (wGate m c) (wUp m c) (wDown m c) (scale m c) q (256 * (t.val % 56) + k.val) := by
  have hlt : 256 * (t.val % 56) + k.val < 14336 := by have := k.isLt; omega
  rw [term_of_lt (tokRow m c r) (wGate m c) (wUp m c) (wDown m c) (scale m c) q ⟨256 * (t.val % 56) + k.val, hlt⟩ _ rfl]
  rw [tile_eq_gated (iblk m c 0 t) (iblk m c 1 t) (iblk m c 2 t) (iblk m c 4 t) p k (tokRow m c r) (wGate m c) (wUp m c)
    (scale m c) ⟨256 * (t.val % 56) + k.val, hlt⟩ (fun cc => x_tile m c t p cc r hr) (fun cc => up_tile m c t k cc _ rfl)
    (fun cc => gate_tile m c t k cc _ rfl) (scale_tile m c t k _ rfl),
    down_tile m c t q k ⟨256 * (t.val % 56) + k.val, hlt⟩ rfl]

/-- A tile's first point leaves its first run's sum. -/
theorem first_point (c : Dev nD) (t : Fin cfg0.N) (h0 : t.val % 56 = 0) (p : Fin 256) (q : Fin 4096) (r : Fin 8192)
    (hr : r.val = 256 * (t.val / 56) + p.val) :
    (outsAt0 m c t.val t.isLt : FVec Ideal S256x4096 .f32) (ix2 p q)
      = partOut (tokRow m c r) (wGate m c) (wUp m c) (wDown m c) (scale m c) q (t.val % 56 + 1) := by
  rw [outsAt0_A m c t h0, Pieces.out_A]
  refine (pay2_apply (iblk m c 0 t) (iblk m c 1 t) (iblk m c 2 t) (iblk m c 3 t) (iblk m c 4 t) (k0_pay1 (F := Ideal)) p q).trans ?_
  rw [partOut_succ, h0, partOut_zero]
  refine congrArg₂ (· + ·) ?_ (Finset.sum_congr rfl fun k _ => ?_)
  · show Ideal.ofBits .f32 0x00000000#32 = 0
    exact Ideal.ofBits_zero_f32
  · have := run_term m c t p q r hr k
    rw [h0] at this
    exact this

/-- Every later point adds its run's sum to what the point before left. -/
theorem later_point (c : Dev nD) (t : Fin cfg0.N) (h0 : ¬t.val % 56 = 0) (p : Fin 256) (q : Fin 4096) (r : Fin 8192)
    (hr : r.val = 256 * (t.val / 56) + p.val) :
    (outsAt0 m c t.val t.isLt : FVec Ideal S256x4096 .f32) (ix2 p q)
      = (outsAt0 m c (t.val - 1) (Nat.lt_of_le_of_lt (Nat.sub_le _ _) t.isLt) : FVec Ideal S256x4096 .f32) (ix2 p q)
        + ∑ k : Fin 256, term (tokRow m c r) (wGate m c) (wUp m c) (wDown m c) (scale m c) q (256 * (t.val % 56) + k.val) := by
  rw [outsAt0_B m c t h0, Pieces.out_B]
  refine (pay2_apply (iblk m c 0 t) (iblk m c 1 t) (iblk m c 2 t) (iblk m c 3 t) (iblk m c 4 t) _ p q).trans ?_
  exact congrArg (_ + ·) (Finset.sum_congr rfl fun k _ => run_term m c t p q r hr k)

/-- The buffer after point `n`: the first `n % 56 + 1` runs of the sum for token row `256 · (n / 56) + p`. -/
theorem outsAt_apply (c : Dev nD) : ∀ (n : ℕ) (hn : n < cfg0.N) (p : Fin 256) (q : Fin 4096) (r : Fin 8192),
    r.val = 256 * (n / 56) + p.val →
    (outsAt0 m c n hn : FVec Ideal S256x4096 .f32) (ix2 p q)
      = partOut (tokRow m c r) (wGate m c) (wUp m c) (wDown m c) (scale m c) q (n % 56 + 1)
  | 0, hn, p, q, r, hr => first_point m c ⟨0, hn⟩ rfl p q r hr
  | n + 1, hn, p, q, r, hr => by
    by_cases h0 : (n + 1) % 56 = 0
    · exact first_point m c ⟨n + 1, hn⟩ h0 p q r hr
    · refine (later_point m c ⟨n + 1, hn⟩ h0 p q r hr).trans ?_
      show (outsAt0 m c n _ : FVec Ideal S256x4096 .f32) (ix2 p q) + _ = _
      have e : (n + 1) % 56 = n % 56 + 1 := by omega
      rw [outsAt_apply c n (Nat.lt_of_succ_lt hn) p q r (by omega), e]
      exact (partOut_succ (tokRow m c r) (wGate m c) (wUp m c) (wDown m c) (scale m c) q (n % 56 + 1)).symm

end Cert.KernelIdeal.Accum

end
-- ==== Proof.Final.lean ====
/-
  The kernel's result array.

  A token tile's buffer is written back once, after its last run (run 55), and then holds the sum of all 56 runs:
  the row function's whole sum (`GatedSpec.partOut_full`). The 32 token tiles cover the `[8192, 4096]` array, so it
  ends holding the row function of every token row; the program's result is that array reshaped to
  `[4, 2048, 4096]`.
-/
import proofs.«111965_j6442450944690_2_alg».proof.Proof.Gen.KernelIdeal.Frame
import proofs.«111965_j6442450944690_2_alg».proof.Proof.Accum
import Idealize.ShloMosaic.Lib.Pipeline.Value
import Idealize.ShloMosaic.Lib.StableHlo.Run
import Idealize.ShloMosaic.Lib.ValueIdx

noncomputable section

namespace Cert.KernelIdeal.Final

open Cert.KernelIdeal Cert.KernelIdeal.Gen Idealize.ShloMosaic Idealize.ShloMosaic.TcCoe Idealize.SL.Sem
open Idealize.ShloMosaic.Pipeline (Dat)
open Idealize.ShloMosaic.ValueIdx Cert.GatedSpec Cert.KernelIdeal.Blocks Cert.KernelIdeal.Accum

variable (m : (ℓ : Loc nD τ sig) → Buf (Elt Ideal) ℓ) (ρ : Dev nD → PrngReg)

/-- The region's result array as one function: token row `r`, feature `h` ↦ the row function of row `r`. -/
def tokensOut (c : Dev nD) : S8192x4096.Idx → EReal := fun j =>
  rowOut (tokRow m c ⟨(j 0).val, (j 0).isLt⟩) (wGate m c) (wUp m c) (wDown m c) (scale m c) ⟨(j 1).val, (j 1).isLt⟩

/-- What a token tile's last point writes back is that tile of `tokensOut`. -/
theorem flushed_eq (c : Dev nD) (t : Fin cfg0.N) (hf : (cfg0.win 5).flush t = true) :
    (dats m 0 c).flushed 5 t = ((cfg0.win 5).blk t).view.read (Elt Ideal) (tokensOut m c) := by
  have h55 : t.val % 56 = 55 := (flush0_5 t).mp hf
  have hN : t.val < 1792 := lt_of_lt_of_eq t.isLt N_0
  obtain ⟨-, -, -, -, -, -, -, -, -, -, e0, e1⟩ := tile_index t
  show (cfg0.win 5).cut (grid0.coords t) ((dats m 0 c).after 5 t) = _
  rw [after0_5]
  funext y
  have hy0 : (y 0).val < 256 := (y 0).isLt
  have hy1 : (y 1).val < 4096 := (y 1).isLt
  have ey : y = ix2 (⟨(y 0).val, hy0⟩ : Fin 256) (⟨(y 1).val, hy1⟩ : Fin 4096) :=
    funext fun d => by match d with | ⟨0, _⟩ => rfl | ⟨1, _⟩ => rfl
  have hr : 256 * (t.val / 56) + (y 0).val < 8192 := by omega
  have eemb : ((cfg0.win 5).blk t).view.emb y
      = ix2 (⟨256 * (t.val / 56) + (y 0).val, hr⟩ : Fin 8192) (⟨(y 1).val, hy1⟩ : Fin 4096) :=
    funext fun a => Fin.ext (by
      match a with
      | ⟨0, _⟩ => show win0_5.index t 0 * 256 + 1 * (y 0).val = 256 * (t.val / 56) + (y 0).val; rw [e0]; omega
      | ⟨1, _⟩ => show win0_5.index t 1 * 4096 + 1 * (y 1).val = (y 1).val; rw [e1]; omega)
  show (outsAt0 m c t.val t.isLt : FVec Ideal S256x4096 .f32) y = tokensOut m c (((cfg0.win 5).blk t).view.emb y)
  rw [eemb]
  refine (congrArg (outsAt0 m c t.val t.isLt : FVec Ideal S256x4096 .f32) ey).trans ?_
  refine (outsAt_apply m c t.val t.isLt _ _ ⟨_, hr⟩ rfl).trans ?_
  rw [h55]
  exact partOut_full _ _ _ _ _ _

/-- An index of the array is in point `t`'s tile iff each coordinate is in the tile's range. -/
theorem mem_out_tile (t : Fin cfg0.N) (i : S8192x4096.Idx) :
    i ∈ ((cfg0.win 5).blk t).view.set ↔ ∀ a : Fin 2, win0_5.index t a * S256x4096.size a ≤ (i a).val ∧ (i a).val < win0_5.index t a * S256x4096.size a + S256x4096.size a := by
  show i ∈ ((View.whole main_v4).slice (win0_5.rect t)).set ↔ _
  rw [View.set_slice_whole, Rect.mem_set_unit]
  exact Iff.rfl

/-- Every index of the array is in the tile of the last point of its token tile. -/
theorem cover (i : S8192x4096.Idx) :
    ∃ t : Fin cfg0.N, (cfg0.win 5).flush t = true ∧ i ∈ ((cfg0.win 5).blk t).view.set := by
  have hi0 : (i 0).val < 8192 := (i 0).isLt
  have hi1 : (i 1).val < 4096 := (i 1).isLt
  have hN : cfg0.N = 1792 := N_0
  have ht : 56 * ((i 0).val / 256) + 55 < cfg0.N := by rw [hN]; omega
  refine ⟨⟨56 * ((i 0).val / 256) + 55, ht⟩, (flush0_5 _).mpr (by show (56 * ((i 0).val / 256) + 55) % 56 = 55; omega), ?_⟩
  rw [mem_out_tile]
  obtain ⟨-, -, -, -, -, -, -, -, -, -, e0, e1⟩ := tile_index ⟨56 * ((i 0).val / 256) + 55, ht⟩
  dsimp only at e0 e1
  intro a
  match a with
  | ⟨0, _⟩ =>
    show win0_5.index ⟨56 * ((i 0).val / 256) + 55, ht⟩ 0 * 256 ≤ (i 0).val ∧ (i 0).val < win0_5.index ⟨56 * ((i 0).val / 256) + 55, ht⟩ 0 * 256 + 256
    rw [e0]; omega
  | ⟨1, _⟩ =>
    show win0_5.index ⟨56 * ((i 0).val / 256) + 55, ht⟩ 1 * 4096 ≤ (i 1).val ∧ (i 1).val < win0_5.index ⟨56 * ((i 0).val / 256) + 55, ht⟩ 1 * 4096 + 4096
    rw [e1]; omega

/-- The region's result array after the run. -/
theorem final_out (c : Dev nD) : (dats m 0 c).arrAt 5 cfg0.N = tokensOut m c :=
  (dats m 0 c).arrAt_eq_of_cover 5 (tokensOut m c) (flushed_eq m c) cover

/-- The program's result: the region's array reshaped to `[4, 2048, 4096]`. -/
def result (c : Dev nD) : S4x2048x4096.Idx → EReal :=
  shapeCast S4x2048x4096 (tokensOut m c) shapeCasts_S8192x4096_S4x2048x4096

/-- The host operation after the region leaves the result. -/
theorem tail_eq (c : Dev nD) : Pipeline.afterTail₀ cfgs (dats m) 0 (V0 m) [hostOps1] c main_v5 = result m c := by
  unfold Pipeline.afterTail₀
  show StableHlo.after hostOps1 _ (Proc.devRef .tc main_v5) = _
  after_results
  have e : Pipeline.withArrays (cfgs 0).spec c (V0 m c) (fun w => (dats m 0 c).arrAt w (cfgs 0).N) (Proc.devRef .tc main_v4)
      = tokensOut m c :=
    (Pipeline.withArrays_arr spec0 launch0.win.arr_inj c _ _ 5).trans (final_out m c)
  rw [e]
  rfl

/-- The run, read: the result at `result`, the arguments unchanged. -/
theorem run : θ_run defs (onTc (τ := τ) (main (F := Ideal))) ⟨m, fun _ => 0, ρ⟩ fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Final

end
-- ==== Proof.RefRead.lean ====
/-
  The reference, read at one output element.

  Its result at token (b, s) and feature h is the row function of `GatedSpec` on row (b, s) of `x`: each of its
  operations is read at an index by the generated stage lemmas, the two inner contractions are the projections of the
  row on `w_up` and `w_gate`, the comparison's bit converted to a float is the mask, jax's spelling of the sigmoid —
  negate, exponential, add one, divide one by it — is the logistic function, and the last contraction is the sum over
  all neurons.
-/
import proofs.«111965_j6442450944690_2_alg».proof.Proof.Gen.ReferenceIdeal.Read
import proofs.«111965_j6442450944690_2_alg».proof.Proof.GatedSpec

noncomputable section

namespace Cert.ReferenceIdeal.RefValue

open Cert.ReferenceIdeal Cert.ReferenceIdeal.Read Idealize.ShloMosaic Idealize.ShloMosaic.ValueIdx Cert.GatedSpec

theorem lidx13 (b : Fin 4) (s : Fin 2048) (h : Fin 4096) (k : Fin 14336) :
    lidx_main_v13 (ix3 b s h) k = ix3 b s k :=
  funext fun a => Fin.ext (by match a with | ⟨0, _⟩ => rfl | ⟨1, _⟩ => rfl | ⟨2, _⟩ => rfl)

theorem ridx13 (b : Fin 4) (s : Fin 2048) (h : Fin 4096) (k : Fin 14336) :
    ridx_main_v13 (ix3 b s h) k = ix2 h k :=
  funext fun a => Fin.ext (by match a with | ⟨0, _⟩ => rfl | ⟨1, _⟩ => rfl)

theorem lidx0 (b : Fin 4) (s : Fin 2048) (k : Fin 14336) (c : Fin 4096) :
    lidx_main_v0 (ix3 b s k) c = ix3 b s c :=
  funext fun a => Fin.ext (by match a with | ⟨0, _⟩ => rfl | ⟨1, _⟩ => rfl | ⟨2, _⟩ => rfl)

theorem ridx0 (b : Fin 4) (s : Fin 2048) (k : Fin 14336) (c : Fin 4096) :
    ridx_main_v0 (ix3 b s k) c = ix2 k c :=
  funext fun a => Fin.ext (by match a with | ⟨0, _⟩ => rfl | ⟨1, _⟩ => rfl)

theorem lidx8 (b : Fin 4) (s : Fin 2048) (k : Fin 14336) (c : Fin 4096) :
    lidx_main_v8 (ix3 b s k) c = ix3 b s c :=
  funext fun a => Fin.ext (by match a with | ⟨0, _⟩ => rfl | ⟨1, _⟩ => rfl | ⟨2, _⟩ => rfl)

theorem ridx8 (b : Fin 4) (s : Fin 2048) (k : Fin 14336) (c : Fin 4096) :
    ridx_main_v8 (ix3 b s k) c = ix2 k c :=
  funext fun a => Fin.ext (by match a with | ⟨0, _⟩ => rfl | ⟨1, _⟩ => rfl)

theorem idx21 (b : Fin 4) (s : Fin 2048) (k : Fin 14336) :
    idx_main_v1 (idx_main_v2 (ix3 b s k)) = ix1 k :=
  funext fun a => Fin.ext (by match a with | ⟨0, _⟩ => rfl)

/-- The up projection stage at (b, s, k). -/
theorem up_apply (x0 : (⟨S4x2048x4096, .f32⟩ : BufTy).Contents (Elt Ideal)) (x2 : (⟨S14336x4096, .f32⟩ : BufTy).Contents (Elt Ideal))
    (b : Fin 4) (s : Fin 2048) (k : Fin 14336) :
    val_main_v0 (F := Ideal) x0 x2 (ix3 b s k) = proj (fun c => x0 (ix3 b s c)) x2 k := by
  rw [val_main_v0_apply]
  unfold proj
  exact Finset.sum_congr rfl fun c _ => by rw [lidx0, ridx0]

/-- The gate projection stage at (b, s, k). -/
theorem gate_apply (x0 : (⟨S4x2048x4096, .f32⟩ : BufTy).Contents (Elt Ideal)) (x1 : (⟨S14336x4096, .f32⟩ : BufTy).Contents (Elt Ideal))
    (b : Fin 4) (s : Fin 2048) (k : Fin 14336) :
    val_main_v8 (F := Ideal) x0 x1 (ix3 b s k) = proj (fun c => x0 (ix3 b s c)) x1 k := by
  rw [val_main_v8_apply]
  unfold proj
  exact Finset.sum_congr rfl fun c _ => by rw [lidx8, ridx8]

/-- The mask stage at (b, s, k). -/
theorem mask_apply (x0 : (⟨S4x2048x4096, .f32⟩ : BufTy).Contents (Elt Ideal)) (x2 : (⟨S14336x4096, .f32⟩ : BufTy).Contents (Elt Ideal))
    (x4 : (⟨S14336, .f32⟩ : BufTy).Contents (Elt Ideal)) (b : Fin 4) (s : Fin 2048) (k : Fin 14336) :
    val_main_v7 (F := Ideal) x0 x2 x4 (ix3 b s k) = mask (proj (fun c => x0 (ix3 b s c)) x2 k) (x4 (ix1 k)) := by
  rw [val_main_v7_apply, val_main_v6_apply, val_main_v4_apply, val_main_v3_apply, val_main_v5_apply, val_main_cst_apply,
    val_main_v2_apply, val_main_v1_apply, idx21, up_apply]
  rfl

/-- The gated value stage at (b, s, k). -/
theorem gated_apply (x0 : (⟨S4x2048x4096, .f32⟩ : BufTy).Contents (Elt Ideal)) (x1 x2 : (⟨S14336x4096, .f32⟩ : BufTy).Contents (Elt Ideal))
    (x4 : (⟨S14336, .f32⟩ : BufTy).Contents (Elt Ideal)) (b : Fin 4) (s : Fin 2048) (k : Fin 14336) :
    val_main_v12 (F := Ideal) x0 x1 x2 x4 (ix3 b s k) = gated (fun c => x0 (ix3 b s c)) x1 x2 (fun i => x4 (ix1 i)) k := by
  rw [val_main_v12_apply, val_main_v10_apply, val_main_v11_apply, val_main_call0_v5_apply, val_main_call0_v4_apply,
    val_main_call0_cst_0_apply, val_main_call0_v3_apply, val_main_call0_v2_apply, val_main_call0_cst_apply,
    val_main_call0_v1_apply, val_main_call0_v0_apply, val_main_v9_apply, gate_apply, mask_apply, up_apply]
  unfold gated neuron silu
  rw [← logistic_spelt]
  rfl

/-- The reference's result at (b, s, h) is the row function on row (b, s) of `x`. -/
theorem result_apply (x0 : (⟨S4x2048x4096, .f32⟩ : BufTy).Contents (Elt Ideal)) (x1 x2 : (⟨S14336x4096, .f32⟩ : BufTy).Contents (Elt Ideal))
    (x3 : (⟨S4096x14336, .f32⟩ : BufTy).Contents (Elt Ideal)) (x4 : (⟨S14336, .f32⟩ : BufTy).Contents (Elt Ideal))
    (b : Fin 4) (s : Fin 2048) (h : Fin 4096) :
    val_main_v13 (F := Ideal) x0 x1 x2 x3 x4 (ix3 b s h)
      = rowOut (fun c => x0 (ix3 b s c)) x1 x2 x3 (fun i => x4 (ix1 i)) h := by
  rw [val_main_v13_apply]
  unfold rowOut
  exact Finset.sum_congr rfl fun k _ => by rw [lidx13, ridx13, gated_apply]

end Cert.ReferenceIdeal.RefValue

end
-- ==== Proof.Bridge.lean ====
/-
  The two results are one function of the arguments.

  The kernel's result at token (b, s) and feature h is the row function on token row `2048 · b + s` of the token
  matrix, which is row (b, s) of `x` (the reshape keeps the row-major position); the weights the region finds are the
  arguments themselves — rounding to bf16 is the identity on the extended reals — and the scale row's entry `i` is
  the scale vector's. The reference's result at the same index is the same row function (`RefRead`).
-/
import proofs.«111965_j6442450944690_2_alg».proof.Proof.Final
import proofs.«111965_j6442450944690_2_alg».proof.Proof.RefRead

noncomputable section

namespace Cert.KernelIdeal.Bridge

open Cert.KernelIdeal Cert.KernelIdeal.Gen Idealize.ShloMosaic Idealize.ShloMosaic.TcCoe Idealize.SL.Sem
open Idealize.ShloMosaic.ValueIdx Cert.GatedSpec Cert.KernelIdeal.Blocks Cert.KernelIdeal.Accum Cert.KernelIdeal.Final

variable (m : (ℓ : Loc nD τ sig) → Buf (Elt Ideal) ℓ)

/-- Token row `2048 · b + s` of the token matrix is row (b, s) of `x`. -/
theorem tokRow_eq (c : Dev nD) (b : Fin 4) (s : Fin 2048) (r : Fin 8192) (hr : r.val = 2048 * b.val + s.val) :
    tokRow m c r = fun cc => m ((c.tc : Thread nD τ).loc main_arg0) (ix3 b s cc) := by
  funext cc
  show (V m c main_v0 : S8192x4096.Idx → EReal) (ix2 r cc) = _
  rw [V_tokens]
  exact shapeCast_apply _ _ (ix2 r cc) (ix3 b s cc) (by
    rw [Shape.rowMajor_val_two, Shape.rowMajor_val_three]
    show (b.val * 2048 + s.val) * 4096 + cc.val = r.val * 4096 + cc.val
    rw [hr]; ring)

/-- The gate weights the region finds are `w_gate`. -/
theorem wGate_eq (c : Dev nD) : wGate m c = m ((c.tc : Thread nD τ).loc main_arg1) := by
  show (V m c main_v1 : S14336x4096.Idx → EReal) = _
  rw [V_gate]; rfl

/-- The up weights the region finds are `w_up`. -/
theorem wUp_eq (c : Dev nD) : wUp m c = m ((c.tc : Thread nD τ).loc main_arg2) := V_main_arg2 m c

/-- The down weights the region finds are `w_down`. -/
theorem wDown_eq (c : Dev nD) : wDown m c = m ((c.tc : Thread nD τ).loc main_arg3) := by
  show (V m c main_v2 : S4096x14336.Idx → EReal) = _
  rw [V_down]; rfl

/-- Entry `i` of the scale row is entry `i` of the scale vector. -/
theorem scale_eq (c : Dev nD) : scale m c = fun i => m ((c.tc : Thread nD τ).loc main_arg4) (ix1 i) := by
  funext i
  show (V m c main_v3 : S1x14336.Idx → EReal) (ix2 (0 : Fin 1) i) = _
  rw [V_scale]
  exact shapeCast_apply _ _ (ix2 (0 : Fin 1) i) (ix1 i) (by
    rw [Shape.rowMajor_val_two, Shape.rowMajor_val_one]
    show i.val = 0 * 14336 + i.val
    omega)

/-- The kernel's result is the reference's last stage of the kernel's own arguments. -/
theorem result_eq (c : Dev nD) :
    result m c = Cert.ReferenceIdeal.Read.val_main_v13 (F := Ideal) (m ((c.tc : Thread nD τ).loc main_arg0))
      (m ((c.tc : Thread nD τ).loc main_arg1)) (m ((c.tc : Thread nD τ).loc main_arg2))
      (m ((c.tc : Thread nD τ).loc main_arg3)) (m ((c.tc : Thread nD τ).loc main_arg4)) := by
  funext j
  obtain ⟨b, s, h, rfl⟩ : ∃ (b : Fin 4) (s : Fin 2048) (h : Fin 4096), j = ix3 b s h := ⟨j 0, j 1, j 2, eq_ix3 j⟩
  rw [Cert.ReferenceIdeal.RefValue.result_apply]
  have hr : 2048 * b.val + s.val < 8192 := by have := b.isLt; have := s.isLt; omega
  unfold result
  rw [shapeCast_apply (tokensOut m c) shapeCasts_S8192x4096_S4x2048x4096 (ix3 b s h) (ix2 (⟨2048 * b.val + s.val, hr⟩ : Fin 8192) h) (by
    rw [Shape.rowMajor_val_two, Shape.rowMajor_val_three]
    show (2048 * b.val + s.val) * 4096 + h.val = (b.val * 2048 + s.val) * 4096 + h.val
    ring)]
  show rowOut (tokRow m c ⟨2048 * b.val + s.val, hr⟩) (wGate m c) (wUp m c) (wDown m c) (scale m c) h = _
  rw [tokRow_eq m c b s ⟨2048 * b.val + s.val, hr⟩ rfl, wGate_eq, wUp_eq, wDown_eq, scale_eq]

end Cert.KernelIdeal.Bridge

end
-- ==== Proof.lean ====
/-
  The certificate's claim: the fused gated MLP kernel against its jnp reference.

  Both programs compute, for every token row and output feature, the sum over the 14336 neurons of
  `silu (g · μ) · (u · μ) · w_down`, where `u` and `g` are the row's projections on `w_up` and `w_gate` and `μ` is
  the threshold mask `|u · a| ≥ 1/2`. The kernel tiles tokens by 256 and takes the neuron sum in 56 runs of 256,
  adding each run's sum into the output tile, zeroed at the tile's first run; the reference takes each contraction at
  once. On the extended reals the roundings to bf16 are the identity, the kernel's logistic and jax's spelling of the
  sigmoid are one function, the mask's two spellings (a bit widened and read signed; a bit read unsigned) are one
  number, and a sum taken in consecutive runs is the sum — associativity and commutativity only, so the finiteness
  precondition is never opened.

  The frames of the two kernel programs are the generated frame certificates; the reference's frame is its generated
  run with the result dropped. The idealization rewrote no operation, so `preserves` is `True`. For `algebraic`, the
  kernel's run (`Final.run`: the generated frame run with the output array read as the row function, then reshaped)
  and the reference's generated run meet at `Bridge.result_eq`.
-/
import proofs.«111965_j6442450944690_2_alg».proof.Defs
import proofs.«111965_j6442450944690_2_alg».proof.Proof.Gen.Kernel
import proofs.«111965_j6442450944690_2_alg».proof.Proof.Gen.Kernel.Skeleton
import proofs.«111965_j6442450944690_2_alg».proof.Proof.Gen.Kernel.Launch
import proofs.«111965_j6442450944690_2_alg».proof.Proof.Gen.Kernel.Points
import proofs.«111965_j6442450944690_2_alg».proof.Proof.Gen.Kernel.Frame
import proofs.«111965_j6442450944690_2_alg».proof.Proof.Gen.KernelIdeal
import proofs.«111965_j6442450944690_2_alg».proof.Proof.Gen.KernelIdeal.Skeleton
import proofs.«111965_j6442450944690_2_alg».proof.Proof.Gen.KernelIdeal.Launch
import proofs.«111965_j6442450944690_2_alg».proof.Proof.Gen.KernelIdeal.Points
import proofs.«111965_j6442450944690_2_alg».proof.Proof.Gen.KernelIdeal.Frame
import proofs.«111965_j6442450944690_2_alg».proof.Proof.Gen.ReferenceIdeal
import proofs.«111965_j6442450944690_2_alg».proof.Proof.Gen.Pre_finite_inputs
import proofs.«111965_j6442450944690_2_alg».proof.Proof.Gen.ReferenceIdeal.Run
import proofs.«111965_j6442450944690_2_alg».proof.Proof.Gen.ReferenceIdeal.Read
import proofs.«111965_j6442450944690_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame: its run, the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end at the row function of every token row. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, (hagree c).1, (hagree c).2.1, (hagree c).2.2.1, (hagree c).2.2.2.1,
    (hagree c).2.2.2.2]
  exact (Cert.KernelIdeal.Bridge.result_eq m c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
